-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1200000 : Shape := ⟨2, ![2, 1200000]⟩
abbrev S100000 : Shape := ⟨1, ![100000]⟩
abbrev S1200000 : Shape := ⟨1, ![1200000]⟩
abbrev S1x64 : Shape := ⟨2, ![1, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S64x64 .f32) (main_arg10 : FVec F S64x64 .f32) (main_arg11 : FVec F S64 .f32) (main_arg12 : FVec F S64x64 .f32) (main_arg13 : FVec F S64x2 .f32) (main_arg14 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_v48 main_v49 main_v50

def fn_part1 {F : FTy → Type} [FloatOps F] (main_arg6 : FVec F S1x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x2 .f32) (main_arg14 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x1 .f32) (main_arg1 : IVec S2x1200000 32) (main_arg2 : IVec S100000 32) (main_arg3 : FVec F S1200000 .f32) (main_arg4 : FVec F S1x64 .f32) (main_arg5 : FVec F S64 .f32) (main_arg6 : FVec F S1x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x2 .f32) (main_arg14 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1200000 .f32 := Host.absf main_arg3
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S100000x1 : Shape := ⟨2, ![100000, 1]⟩
abbrev S2x1200000 : Shape := ⟨2, ![2, 1200000]⟩
abbrev S100000 : Shape := ⟨1, ![100000]⟩
abbrev S1200000 : Shape := ⟨1, ![1200000]⟩
abbrev S1x64 : Shape := ⟨2, ![1, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1200000 : Shape := ⟨2, ![1, 1200000]⟩
abbrev S_ : Shape := ⟨0, ![]⟩
abbrev S1200000x1 : Shape := ⟨2, ![1200000, 1]⟩
abbrev S100000x64 : Shape := ⟨2, ![100000, 64]⟩
abbrev S4000x1 : Shape := ⟨2, ![4000, 1]⟩
abbrev S4000x64 : Shape := ⟨2, ![4000, 64]⟩
abbrev S1200000x64 : Shape := ⟨2, ![1200000, 64]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 92
  | .vmem => 27
  | .smem => 0
  | _ => 0

abbrev bufTy : (tb : Table) → Fin (tcTables nBuf tb) → BufTy
  | .hbm, ⟨0, _⟩ => ⟨S100000x1, .f32⟩
  | .hbm, ⟨1, _⟩ => ⟨S2x1200000, .i32⟩
  | .hbm, ⟨2, _⟩ => ⟨S100000, .i32⟩
  | .hbm, ⟨3, _⟩ => ⟨S1200000, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x2, .f32⟩
  | .hbm, ⟨14, _⟩ => ⟨S2, .f32⟩
  | .hbm, ⟨15, _⟩ => ⟨S1x1200000, .i32⟩
  | .hbm, ⟨16, _⟩ => ⟨S1200000, .i32⟩
  | .hbm, ⟨17, _⟩ => ⟨S1x1200000, .i32⟩
  | .hbm, ⟨18, _⟩ => ⟨S1200000, .i32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x1, .f32⟩
  | .hbm, ⟨28, _⟩ => ⟨S1200000x1, .f32⟩
  | .hbm, ⟨29, _⟩ => ⟨S1200000x1, .f32⟩
  | .hbm, ⟨30, _⟩ => ⟨S_, .f32⟩
  | .hbm, ⟨31, _⟩ => ⟨S100000x1, .f32⟩
  | .hbm, ⟨32, _⟩ => ⟨S1200000x1, .i32⟩
  | .hbm, ⟨33, _⟩ => ⟨S100000x1, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S1200000x1, .f32⟩
  | .hbm, ⟨46, _⟩ => ⟨S1200000x64, .f32⟩
  | .hbm, ⟨47, _⟩ => ⟨S1200000x64, .f32⟩
  | .hbm, ⟨48, _⟩ => ⟨S_, .f32⟩
  | .hbm, ⟨49, _⟩ => ⟨S100000x64, .f32⟩
  | .hbm, ⟨50, _⟩ => ⟨S1200000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S_, .i32⟩
  | .hbm, ⟨55, _⟩ => ⟨S1200000, .i32⟩
  | .hbm, ⟨56, _⟩ => ⟨S1200000, .i1⟩
  | .hbm, ⟨57, _⟩ => ⟨S_, .i32⟩
  | .hbm, ⟨58, _⟩ => ⟨S1200000, .i32⟩
  | .hbm, ⟨59, _⟩ => ⟨S1200000, .i32⟩
  | .hbm, ⟨60, _⟩ => ⟨S1200000, .i32⟩
  | .hbm, ⟨61, _⟩ => ⟨S1200000x1, .i32⟩
  | .hbm, ⟨62, _⟩ => ⟨S1200000x64, .f32⟩
  | .hbm, ⟨63, _⟩ => ⟨S1200000x1, .f32⟩
  | .hbm, ⟨64, _⟩ => ⟨S1200000x64, .f32⟩
  | .hbm, ⟨65, _⟩ => ⟨S1200000x64, .f32⟩
  | .hbm, ⟨66, _⟩ => ⟨S_, .f32⟩
  | .hbm, ⟨67, _⟩ => ⟨S100000x64, .f32⟩
  | .hbm, ⟨68, _⟩ => ⟨S1200000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .f32⟩
  | .hbm, ⟨73, _⟩ => ⟨S256x64, .f32⟩
  | .hbm, ⟨74, _⟩ => ⟨S100000x1, .i32⟩
  | .hbm, ⟨75, _⟩ => ⟨S256x64, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S256, .f32⟩
  | .hbm, ⟨80, _⟩ => ⟨S100000x1, .i32⟩
  | .hbm, ⟨81, _⟩ => ⟨S256, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S256x1, .f32⟩
  | .hbm, ⟨86, _⟩ => ⟨S256x64, .f32⟩
  | .hbm, ⟨87, _⟩ => ⟨S256x64, .f32⟩
  | .hbm, ⟨88, _⟩ => ⟨S256x2, .f32⟩
  | .hbm, ⟨89, _⟩ => ⟨S1x2, .f32⟩
  | .hbm, ⟨90, _⟩ => ⟨S256x2, .f32⟩
  | .hbm, ⟨91, _⟩ => ⟨S256x2, .f32⟩
  | .local _ .vmem, ⟨0, _⟩ => ⟨S4000x1, .f32⟩
  | .local _ .vmem, ⟨1, _⟩ => ⟨S4000x1, .f32⟩
  | .local _ .vmem, ⟨2, _⟩ => ⟨S4000x1, .f32⟩
  | .local _ .vmem, ⟨3, _⟩ => ⟨S4000x1, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S4000x64, .f32⟩
  | .local _ .vmem, ⟨26, _⟩ => ⟨S4000x64, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x1 : S_.BroadcastsInDim S100000x1 (![] : Fin 0 → Fin S100000x1.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S100000x1_S1200000x1_S1200000x1_1_0_n_n_0_1_11_wf : GatherDims.WF S100000x1 S1200000x1 S1200000x1 [1] [0] [] [0] [] 1 ![1, 1]
  scatter_S100000x1_S1200000x1_S1200000x1_1_0_0_1_wf : ScatterDims.WF S100000x1 S1200000x1 S1200000x1 [1] [0] [0] 1
  dot_S4000x1_S1x64_S4000x64_1_0_0_1_n_n_wf : DotDims.WF S4000x1 S1x64 S4000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x64_S4000x64_1_0_0_1_n_n_wf : DotDims.WF S4000x64 S64x64 S4000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .f32 = 32 ∨ (Rect.block (s := S100000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)

variable [Facts₀]

def gather_S100000x1_S1200000x1_S1200000x1_1_0_n_n_0_1_11 : GatherDims S100000x1 S1200000x1 S1200000x1 where
  offsetDims := [1]
  collapsedSliceDims := [0]
  operandBatchingDims := []
  startIndicesBatchingDims := []
  startIndexMap := [0]
  indexVectorDim := 1
  sliceSizes := ![1, 1]
  wf := gather_S100000x1_S1200000x1_S1200000x1_1_0_n_n_0_1_11_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S4000x1_S1x64_S4000x64_1_0_0_1_n_n : DotDims S4000x1 S1x64 S4000x64 where
  lhsContracting := [1]
  rhsContracting := [0]
  lhsNonContracting := [0]
  rhsNonContracting := [1]
  lhsBatch := []
  rhsBatch := []
  wf := dot_S4000x1_S1x64_S4000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_v15) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1200000 : Shape := ⟨2, ![2, 1200000]⟩
abbrev S100000 : Shape := ⟨1, ![100000]⟩
abbrev S1200000 : Shape := ⟨1, ![1200000]⟩
abbrev S1x64 : Shape := ⟨2, ![1, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1200000 : Shape := ⟨2, ![1, 1200000]⟩
abbrev S_ : Shape := ⟨0, ![]⟩
abbrev S1200000x1 : Shape := ⟨2, ![1200000, 1]⟩
abbrev S100000x64 : Shape := ⟨2, ![100000, 64]⟩
abbrev S1200000x64 : Shape := ⟨2, ![1200000, 64]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1200000, .i32⟩
  | .hbm, ⟨2, _⟩ => ⟨S100000, .i32⟩
  | .hbm, ⟨3, _⟩ => ⟨S1200000, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x2, .f32⟩
  | .hbm, ⟨14, _⟩ => ⟨S2, .f32⟩
  | .hbm, ⟨15, _⟩ => ⟨S1x1200000, .i32⟩
  | .hbm, ⟨16, _⟩ => ⟨S1200000, .i32⟩
  | .hbm, ⟨17, _⟩ => ⟨S1x1200000, .i32⟩
  | .hbm, ⟨18, _⟩ => ⟨S1200000, .i32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x1, .f32⟩
  | .hbm, ⟨28, _⟩ => ⟨S1200000x1, .f32⟩
  | .hbm, ⟨29, _⟩ => ⟨S1200000x1, .f32⟩
  | .hbm, ⟨30, _⟩ => ⟨S_, .f32⟩
  | .hbm, ⟨31, _⟩ => ⟨S100000x1, .f32⟩
  | .hbm, ⟨32, _⟩ => ⟨S1200000x1, .i32⟩
  | .hbm, ⟨33, _⟩ => ⟨S100000x1, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000x64, .f32⟩
  | .hbm, ⟨52, _⟩ => ⟨S1200000x1, .f32⟩
  | .hbm, ⟨53, _⟩ => ⟨S1200000x64, .f32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1200000, .i32⟩
  | .hbm, ⟨70, _⟩ => ⟨S1200000, .i1⟩
  | .hbm, ⟨71, _⟩ => ⟨S_, .i32⟩
  | .hbm, ⟨72, _⟩ => ⟨S1200000, .i32⟩
  | .hbm, ⟨73, _⟩ => ⟨S1200000, .i32⟩
  | .hbm, ⟨74, _⟩ => ⟨S1200000, .i32⟩
  | .hbm, ⟨75, _⟩ => ⟨S1200000x1, .i32⟩
  | .hbm, ⟨76, _⟩ => ⟨S1200000x64, .f32⟩
  | .hbm, ⟨77, _⟩ => ⟨S1200000x1, .f32⟩
  | .hbm, ⟨78, _⟩ => ⟨S1200000x64, .f32⟩
  | .hbm, ⟨79, _⟩ => ⟨S1200000x64, .f32⟩
  | .hbm, ⟨80, _⟩ => ⟨S_, .f32⟩
  | .hbm, ⟨81, _⟩ => ⟨S100000x64, .f32⟩
  | .hbm, ⟨82, _⟩ => ⟨S1200000x1, .i32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S256x64, .f32⟩
  | .hbm, ⟨92, _⟩ => ⟨S100000x1, .i32⟩
  | .hbm, ⟨93, _⟩ => ⟨S256x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S256, .f32⟩
  | .hbm, ⟨98, _⟩ => ⟨S100000x1, .i32⟩
  | .hbm, ⟨99, _⟩ => ⟨S256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256x1, .f32⟩
  | .hbm, ⟨104, _⟩ => ⟨S256x64, .f32⟩
  | .hbm, ⟨105, _⟩ => ⟨S256x64, .f32⟩
  | .hbm, ⟨106, _⟩ => ⟨S256x2, .f32⟩
  | .hbm, ⟨107, _⟩ => ⟨S1x2, .f32⟩
  | .hbm, ⟨108, _⟩ => ⟨S256x2, .f32⟩
  | .hbm, ⟨109, _⟩ => ⟨S256x2, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_c_4 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_7 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_cst_9 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S100000x1_S1200000x1_S1200000x1_1_0_n_n_0_1_11_wf : GatherDims.WF S100000x1 S1200000x1 S1200000x1 [1] [0] [] [0] [] 1 ![1, 1]
  scatter_S100000x1_S1200000x1_S1200000x1_1_0_0_1_wf : ScatterDims.WF S100000x1 S1200000x1 S1200000x1 [1] [0] [0] 1
  dot_S100000x1_S1x64_S100000x64_1_0_0_1_n_n_wf : DotDims.WF S100000x1 S1x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []

variable [Facts₀]

def gather_S100000x1_S1200000x1_S1200000x1_1_0_n_n_0_1_11 : GatherDims S100000x1 S1200000x1 S1200000x1 where
  offsetDims := [1]
  collapsedSliceDims := [0]
  operandBatchingDims := []
  startIndicesBatchingDims := []
  startIndexMap := [0]
  indexVectorDim := 1
  sliceSizes := ![1, 1]
  wf := gather_S100000x1_S1200000x1_S1200000x1_1_0_n_n_0_1_11_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KernelRun.lean ====
/-
  The idealized kernel's run with its result named.

  @main is seven segments: four stretches of host operations around three launches of the row-block kernel. The launch
  over these segments ends, on every core, with every buffer at the contents of the last segment boundary (the fold
  `W7` of the boundaries' contents from the launch memory). Read at the fifteen argument buffers this is the frame;
  read also at the result buffer it names what the program returns: the last boundary's contents at that buffer.
-/
import proofs.«179882_j30940944401187_1_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.Run

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibLinLayer.lean ====
/-
  One linear layer of a graph convolution (agg · W_rel + bias row + x · W_root, optionally rectified), entry by entry, on
  the extended reals, for any extents; a block body's two `tpu.matmul`s into zero accumulators (`body_lin`,
  `body_linRelu`) and the host's two `dot_general`s (`host_lin`, `host_relu`) are both that layer, rows of the layer are
  the layer of the rows (`lin_congr`, `linRelu_congr`), and a `[C] → [1, C]` reshape equals the broadcast along axis 1
  (`row_two_ways`). Uses the plain matrix product of `LibPlainDot.lean`.

  For node features `x : [M, K]`, their neighbourhood sums `agg : [M, K]`, two weight matrices `wrel, wroot : [K, C]` and a
  bias row `b : [1, C]`, the layer's entry `(p, q)` is
      (∑ k, agg[p,k] · wrel[k,q]) + b[0,q] + (∑ k, x[p,k] · wroot[k,q]),
  and the rectified layer is its maximum with 0. Two computations produce it: a block of rows by two `tpu.matmul`s into
  zero accumulators (the operands passed through a narrower float format, which is the identity on exact values), and the
  host's two `dot_general`s. Rows of the layer depend only on the same rows of `agg` and `x`, so a block of rows of the
  layer is the layer of the blocks of rows (`lin_congr`).
-/
import Idealize.ShloMosaic.Lib.ValueIdx
import Idealize.ShloMosaic.Lib.Pipeline.Value
import Idealize.ShloMosaic.PureOps.Ideal.Laws
import proofs.«179882_j30940944401187_1_alg».proof.Proof.LibPlainDot

noncomputable section

namespace Cert.Lib.LinLayer

open Idealize.ShloMosaic Idealize.ShloMosaic.ValueIdx Cert.Lib.PlainDot

/-- An `a × b` array of extended reals. -/
abbrev Arr (a b : ℕ) : Type := (⟨2, ![a, b]⟩ : Shape).Idx → EReal

/-- The layer: `agg · wrel + b + x · wroot`, entry by entry. -/
def lin {M K C : ℕ} (agg x : Arr M K) (wrel wroot : Arr K C) (b : Arr 1 C) : Arr M C :=
  fun j => rowsByCols agg wrel j + b (ix2 (0 : Fin 1) (j 1)) + rowsByCols x wroot j

/-- The rectified layer: the layer's entries clipped below at zero. -/
def linRelu {M K C : ℕ} (agg x : Arr M K) (wrel wroot : Arr K C) (b : Arr 1 C) : Arr M C :=
  fun j => max (lin agg x wrel wroot b j) 0

/-- Entry `j'` of the layer of `(a, x', …)` is entry `j` of the layer of `(A, X, …)` when row `j' 0` of `a`, `x'` is row
    `j 0` of `A`, `X`, column `j' 1` of the weights is column `j 1`, and the bias agrees at those columns. -/
theorem lin_congr {M M' K C C' : ℕ} (A X : Arr M K) (Wr Wo : Arr K C) (B : Arr 1 C)
    (a x' : Arr M' K) (wr wo : Arr K C') (b : Arr 1 C') (j' : (⟨2, ![M', C']⟩ : Shape).Idx) (j : (⟨2, ![M, C]⟩ : Shape).Idx)
    (ha : ∀ k : Fin K, a (ix2 (j' 0) k) = A (ix2 (j 0) k)) (hx : ∀ k : Fin K, x' (ix2 (j' 0) k) = X (ix2 (j 0) k))
    (hwr : ∀ k : Fin K, wr (ix2 k (j' 1)) = Wr (ix2 k (j 1))) (hwo : ∀ k : Fin K, wo (ix2 k (j' 1)) = Wo (ix2 k (j 1)))
    (hb : b (ix2 (0 : Fin 1) (j' 1)) = B (ix2 (0 : Fin 1) (j 1))) :
    lin a x' wr wo b j' = lin A X Wr Wo B j := by
  unfold lin
  rw [rowsByCols_congr A Wr a wr j' j ha hwr, rowsByCols_congr X Wo x' wo j' j hx hwo, hb]

theorem linRelu_congr {M M' K C C' : ℕ} (A X : Arr M K) (Wr Wo : Arr K C) (B : Arr 1 C)
    (a x' : Arr M' K) (wr wo : Arr K C') (b : Arr 1 C') (j' : (⟨2, ![M', C']⟩ : Shape).Idx) (j : (⟨2, ![M, C]⟩ : Shape).Idx)
    (ha : ∀ k : Fin K, a (ix2 (j' 0) k) = A (ix2 (j 0) k)) (hx : ∀ k : Fin K, x' (ix2 (j' 0) k) = X (ix2 (j 0) k))
    (hwr : ∀ k : Fin K, wr (ix2 k (j' 1)) = Wr (ix2 k (j 1))) (hwo : ∀ k : Fin K, wo (ix2 k (j' 1)) = Wo (ix2 k (j 1)))
    (hb : b (ix2 (0 : Fin 1) (j' 1)) = B (ix2 (0 : Fin 1) (j 1))) :
    linRelu a x' wr wo b j' = linRelu A X Wr Wo B j := by
  unfold linRelu
  rw [lin_congr A X Wr Wo B a x' wr wo b j' j ha hx hwr hwo hb]

/-- The bias row spread over the rows of a block reads, at `(p, q)`, its entry `(0, q)`. -/
theorem spread_row {M C : ℕ} (b : Arr 1 C) (hb : (⟨2, ![1, C]⟩ : Shape).Broadcasts ⟨2, ![M, C]⟩) (j : (⟨2, ![M, C]⟩ : Shape).Idx) :
    broadcastTo ⟨2, ![M, C]⟩ b hb j = b (ix2 (0 : Fin 1) (j 1)) :=
  broadcastTo_apply b hb j (ix2 (0 : Fin 1) (j 1)) (fun a => by
    match a with
    | ⟨0, _⟩ => show 0 = if (1 : ℕ) = 1 then 0 else _; rw [if_pos rfl]
    | ⟨1, _⟩ =>
      show (j 1).val = if C = 1 then 0 else (j 1).val
      split
      · have hj : (j 1).val < C := (j 1).isLt; omega
      · rfl)

/-- The block body's arithmetic: two `tpu.matmul`s into zero accumulators of operands passed through a narrower format,
    the bias row spread over the rows between them, is the layer. -/
theorem body_lin {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .f32) (b : FVec Ideal ⟨2, ![1, C]⟩ .f32) :
    addf (addf (matmul d none (truncf .bf16 agg hlt) (truncf .bf16 wrel hlt) (constant (F := Ideal) ⟨2, ![M, C]⟩ .f32 0x00000000#32))
          (broadcastTo ⟨2, ![M, C]⟩ b hb))
        (matmul d none (truncf .bf16 x hlt) (truncf .bf16 wroot hlt) (constant (F := Ideal) ⟨2, ![M, C]⟩ .f32 0x00000000#32))
      = lin agg x wrel wroot b := by
  funext j
  rw [addf_apply, addf_apply]
  show FloatOps.matmul d none (truncf .bf16 agg hlt) (truncf .bf16 wrel hlt) (constant (F := Ideal) ⟨2, ![M, C]⟩ .f32 0x00000000#32) j
      + broadcastTo ⟨2, ![M, C]⟩ b hb j
      + FloatOps.matmul d none (truncf .bf16 x hlt) (truncf .bf16 wroot hlt) (constant (F := Ideal) ⟨2, ![M, C]⟩ .f32 0x00000000#32) j = _
  rw [matmul_zero_eq d hd none (truncf .bf16 agg hlt) (truncf .bf16 wrel hlt),
    matmul_zero_eq d hd none (truncf .bf16 x hlt) (truncf .bf16 wroot hlt), spread_row b hb j]
  rfl

/-- The same followed by a maximum with the zero word spread over the block: the rectified layer. -/
theorem body_linRelu {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .f32) (b : FVec Ideal ⟨2, ![1, C]⟩ .f32) :
    maximumf (addf (addf (matmul d none (truncf .bf16 agg hlt) (truncf .bf16 wrel hlt) (constant (F := Ideal) ⟨2, ![M, C]⟩ .f32 0x00000000#32))
          (broadcastTo ⟨2, ![M, C]⟩ b hb))
        (matmul d none (truncf .bf16 x hlt) (truncf .bf16 wroot hlt) (constant (F := Ideal) ⟨2, ![M, C]⟩ .f32 0x00000000#32)))
        (broadcast ⟨2, ![M, C]⟩ (Scalar.ofBits (F := Ideal) .f32 0x00000000#32))
      = linRelu agg x wrel wroot b := by
  rw [body_lin d hd hb hlt agg x wrel wroot b]
  funext j
  rw [maximumf_apply, broadcast_apply]
  show max _ (Ideal.ofBits .f32 0x00000000#32) = _
  rw [Ideal.ofBits_zero_f32]
  rfl

/-- The host's arithmetic: two `dot_general`s with the bias row spread over the rows between them, is the layer. -/
theorem host_lin {M K C : ℕ} (d : DotDims ⟨2, ![M, K]⟩ ⟨2, ![K, C]⟩ ⟨2, ![M, C]⟩) (hd : d = DotDims.plain M K C)
    (h : (⟨2, ![1, C]⟩ : Shape).BroadcastsInDim ⟨2, ![M, C]⟩ ![0, 1])
    (agg x : FVec Ideal ⟨2, ![M, K]⟩ .f32) (wrel wroot : FVec Ideal ⟨2, ![K, C]⟩ .f32) (b : FVec Ideal ⟨2, ![1, C]⟩ .f32) :
    addf (addf (Host.dotGeneral d none agg wrel) (broadcastInDim ⟨2, ![M, C]⟩ ![0, 1] h b)) (Host.dotGeneral d none x wroot)
      = lin agg x wrel wroot b := by
  funext j
  rw [addf_apply, addf_apply]
  show FloatOps.dotGeneral d none .single agg wrel j + broadcastInDim ⟨2, ![M, C]⟩ ![0, 1] h b j
      + FloatOps.dotGeneral d none .single x wroot j = _
  rw [dotGeneral_eq d hd none .single agg wrel, dotGeneral_eq d hd none .single x wroot,
    broadcastInDim_apply ![0, 1] h b j (ix2 (0 : Fin 1) (j 1)) (fun a => by
      match a with
      | ⟨0, _⟩ => show 0 = if (1 : ℕ) = 1 then 0 else _; rw [if_pos rfl]
      | ⟨1, _⟩ =>
        show (j 1).val = if C = 1 then 0 else (j 1).val
        split
        · have hj : (j 1).val < C := (j 1).isLt; omega
        · rfl)]
  rfl

/-- The host's rectifier: a maximum with the zero word spread over the array (a scalar broadcast) clips at zero. -/
theorem host_relu {M C : ℕ} (h : (⟨0, ![]⟩ : Shape).BroadcastsInDim ⟨2, ![M, C]⟩ ![]) (v : FVec Ideal ⟨2, ![M, C]⟩ .f32) :
    maximumf v (broadcastInDim ⟨2, ![M, C]⟩ ![] h (constant (F := Ideal) ⟨0, ![]⟩ .f32 0x00000000#32)) = fun j => max (v j) 0 := by
  funext j
  rw [maximumf_apply, broadcastInDim_apply ![] h _ j ix0 (fun a => a.elim0), constant_apply, Ideal.ofBits_zero_f32]

/-- A row vector made from a vector by a reshape `[C] → [1, C]` and by a `broadcast_in_dim` along axis 1 are one array. -/
theorem row_two_ways {C : ℕ} {α : Type} (b : (⟨1, ![C]⟩ : Shape).Idx → α) (hs : (⟨1, ![C]⟩ : Shape).ShapeCasts ⟨2, ![1, C]⟩)
    (hbc : (⟨1, ![C]⟩ : Shape).BroadcastsInDim ⟨2, ![1, C]⟩ ![1]) :
    shapeCast ⟨2, ![1, C]⟩ b hs = broadcastInDim ⟨2, ![1, C]⟩ ![1] hbc b := by
  funext i
  rw [shapeCast_apply b hs i (ix1 (i 1)) (by
        rw [Shape.rowMajor_val_one, Shape.rowMajor_val_two]
        have h0 : (i 0).val < 1 := (i 0).isLt
        show (i 1).val = (i 0).val * C + (i 1).val
        have : (i 0).val = 0 := by omega
        rw [this, Nat.zero_mul, Nat.zero_add]),
    broadcastInDim_apply ![1] hbc b i (ix1 (i 1)) (fun a => by
      match a with
      | ⟨0, _⟩ =>
        show (i 1).val = if C = 1 then 0 else (i 1).val
        split
        · have hi : (i 1).val < C := (i 1).isLt; omega
        · rfl)]

end Cert.Lib.LinLayer

end
-- ==== Proof.Region0.lean ====
/-
  Launch 0 of the row-block kernel: what its result array holds.

  The grid has 25 points; point `t` reads rows `4000·t … 4000·t + 3999` of the neighbourhood sums and of the node
  features, the whole of both weight matrices and of the bias row, and writes the same rows of the result. Its body
  computes the rectified linear layer of those blocks, and a block of rows of the layer is the layer of the blocks of rows, so
  what point `t` writes back is block `t` of the layer of the whole arrays. The 25 blocks tile the result, so the result
  array ends holding the layer of the arrays as the launch finds them — stated for any contents `V` at entry.
-/
import proofs.«179882_j30940944401187_1_alg».proof.Proof.Gen.KernelIdeal.Frame
import proofs.«179882_j30940944401187_1_alg».proof.Proof.LibLinLayer

set_option maxRecDepth 16384

noncomputable section

namespace Cert.KernelIdeal.Blocks0

open Cert.KernelIdeal Cert.KernelIdeal.Gen Cert.Lib.LinLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the rectified layer of its five loaded blocks. -/
theorem body_value (v0 v3 : Vec Ideal S4000x1 .f32) (v6 v8 : Vec Ideal S1x64 .f32) (v11 : Vec Ideal S1x64 .f32) :
    k0_pay1 (F := Ideal) v0 v3 v6 v8 v11 = linRelu v0 v3 v6 v8 v11 := by
  unfold k0_pay1
  simp only [shapeCast_self]
  exact body_linRelu dot_S4000x1_S1x64_S4000x64_1_0_0_1_n_n rfl _ _ v0 v3 v6 v8 v11

/-- The index maps over the grid: the two row-blocked inputs and the output are at block `(t, 0)`, the weights and the
    bias at block `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays as the launch finds them. -/
abbrev whole (c : Dev nD) : Buf (Elt Ideal) ((c : Thread nD τ).loc main_v17) :=
  linRelu (V c main_v15) (V c main_arg0) (V c main_arg4) (V c main_arg6) (V c main_v16)

/-- What point `t` writes back is block `t` of the layer of the whole arrays. -/
theorem written_back (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero origin]
  simp only [View.ld_unit_zero (S := S4000x1) origin, View.ld_unit_zero (S := S1x64) origin, View.ld_unit_zero (S := S1x64) origin]
  rw [body_value]
  obtain ⟨a0, a1, x0, x1, r0, r1, b0, b1, o0, o1, y0, y1⟩ := index_maps t
  funext y
  show linRelu (iblk0 V c 0 t) (iblk0 V c 1 t) (iblk0 V c 2 t) (iblk0 V c 4 t) (iblk0 V c 3 t) y
      = linRelu (V c main_v15) (V c main_arg0) (V c main_arg4) (V c main_arg6) (V c main_v16) (((cfg0.win 5).blk t).view.emb y)
  have hy0 : (y 0).val < 4000 := (y 0).isLt
  have hy1 : (y 1).val < 64 := (y 1).isLt
  refine linRelu_congr _ _ _ _ _ _ _ _ _ _ y _ ?_ ?_ ?_ ?_ ?_
  · intro k
    show V c main_v15 (((cfg0.win 0).blk t).view.emb (ix2 (y 0) k)) = V c main_v15 (ix2 ((((cfg0.win 5).blk t).view.emb y) 0) k)
    refine congrArg _ (funext fun a => Fin.ext ?_)
    match a with
    | ⟨0, _⟩ => show win0_0.index t (0 : Fin 2) * 4000 + 1 * (y 0).val = win0_5.index t (0 : Fin 2) * 4000 + 1 * (y 0).val; omega
    | ⟨1, _⟩ => show win0_0.index t (1 : Fin 2) * 1 + 1 * k.val = k.val; omega
  · intro k
    show V c main_arg0 (((cfg0.win 1).blk t).view.emb (ix2 (y 0) k)) = V c main_arg0 (ix2 ((((cfg0.win 5).blk t).view.emb y) 0) k)
    refine congrArg _ (funext fun a => Fin.ext ?_)
    match a with
    | ⟨0, _⟩ => show win0_1.index t (0 : Fin 2) * 4000 + 1 * (y 0).val = win0_5.index t (0 : Fin 2) * 4000 + 1 * (y 0).val; omega
    | ⟨1, _⟩ => show win0_1.index t (1 : Fin 2) * 1 + 1 * k.val = k.val; omega
  · intro k
    show V c main_arg4 (((cfg0.win 2).blk t).view.emb (ix2 k (y 1))) = V c main_arg4 (ix2 k ((((cfg0.win 5).blk t).view.emb y) 1))
    refine congrArg _ (funext fun a => Fin.ext ?_)
    match a with
    | ⟨0, _⟩ => show win0_2.index t (0 : Fin 2) * 1 + 1 * k.val = k.val; omega
    | ⟨1, _⟩ => show win0_2.index t (1 : Fin 2) * 64 + 1 * (y 1).val = win0_5.index t (1 : Fin 2) * 64 + 1 * (y 1).val; omega
  · intro k
    show V c main_arg6 (((cfg0.win 4).blk t).view.emb (ix2 k (y 1))) = V c main_arg6 (ix2 k ((((cfg0.win 5).blk t).view.emb y) 1))
    refine congrArg _ (funext fun a => Fin.ext ?_)
    match a with
    | ⟨0, _⟩ => show win0_4.index t (0 : Fin 2) * 1 + 1 * k.val = k.val; omega
    | ⟨1, _⟩ => show win0_4.index t (1 : Fin 2) * 64 + 1 * (y 1).val = win0_5.index t (1 : Fin 2) * 64 + 1 * (y 1).val; omega
  · show V c main_v16 (((cfg0.win 3).blk t).view.emb (ix2 (0 : Fin 1) (y 1))) = V c main_v16 (ix2 (0 : Fin 1) ((((cfg0.win 5).blk t).view.emb y) 1))
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * (y 1).val = win0_5.index t (1 : Fin 2) * 64 + 1 * (y 1).val; omega

/-- An index of the result is in point `t`'s block iff each coordinate is in the block's range on its axis. -/
theorem in_block (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v17).slice (win0_5.rect t)).set ↔ _
  rw [View.set_slice_whole, Rect.mem_set_unit]
  exact Iff.rfl

/-- Row `r` of the result is in the block of point `r / 4000`: the 25 blocks tile the array. -/
theorem tiled (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 25 := N_0
  let t : Fin cfg0.N := ⟨(i 0).val / 4000, by show (i 0).val / 4000 < grid0.N; omega⟩
  obtain ⟨a0, a1, x0, x1, r0, r1, b0, b1, o0, o1, y0, y1⟩ := index_maps t
  have ht : t.val = (i 0).val / 4000 := rfl
  refine ⟨t, flush0_5 t, ?_⟩
  rw [in_block]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- The result array after the launch is the layer of the arrays the launch found. -/
theorem result (c : Dev nD) : (dat0 V c).arrAt 5 cfg0.N = whole V c :=
  (dat0 V c).arrAt_eq_of_cover 5 (whole V c) (fun t _ => written_back V c t) tiled

end Cert.KernelIdeal.Blocks0

end
-- ==== Proof.Region1.lean ====
/-
  Launch 1 of the row-block kernel: what its result array holds.

  The grid has 25 points; point `t` reads rows `4000·t … 4000·t + 3999` of the neighbourhood sums and of the node
  features, the whole of both weight matrices and of the bias row, and writes the same rows of the result. Its body
  computes the rectified linear layer of those blocks, and a block of rows of the layer is the layer of the blocks of rows, so
  what point `t` writes back is block `t` of the layer of the whole arrays. The 25 blocks tile the result, so the result
  array ends holding the layer of the arrays as the launch finds them — stated for any contents `V` at entry.
-/
import proofs.«179882_j30940944401187_1_alg».proof.Proof.Gen.KernelIdeal.Frame
import proofs.«179882_j30940944401187_1_alg».proof.Proof.LibLinLayer

set_option maxRecDepth 16384

noncomputable section

namespace Cert.KernelIdeal.Blocks1

open Cert.KernelIdeal Cert.KernelIdeal.Gen Cert.Lib.LinLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the rectified layer of its five loaded blocks. -/
theorem body_value (v0 v3 : Vec Ideal S4000x64 .f32) (v6 v8 : Vec Ideal S64x64 .f32) (v11 : Vec Ideal S1x64 .f32) :
    k1_pay1 (F := Ideal) v0 v3 v6 v8 v11 = linRelu v0 v3 v6 v8 v11 := by
  unfold k1_pay1
  simp only [shapeCast_self]
  exact body_linRelu dot_S4000x64_S64x64_S4000x64_1_0_0_1_n_n rfl _ _ v0 v3 v6 v8 v11

/-- The index maps over the grid: the two row-blocked inputs and the output are at block `(t, 0)`, the weights and the
    bias at block `(0, 0)`. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays as the launch finds them. -/
abbrev whole (c : Dev nD) : Buf (Elt Ideal) ((c : Thread nD τ).loc main_v32) :=
  linRelu (V c main_v30) (V c main_v17) (V c main_arg7) (V c main_arg9) (V c main_v31)

/-- What point `t` writes back is block `t` of the layer of the whole arrays. -/
theorem written_back (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero origin]
  simp only [View.ld_unit_zero (S := S4000x64) origin, View.ld_unit_zero (S := S64x64) origin, View.ld_unit_zero (S := S1x64) origin]
  rw [body_value]
  obtain ⟨a0, a1, x0, x1, r0, r1, b0, b1, o0, o1, y0, y1⟩ := index_maps t
  funext y
  show linRelu (iblk1 V c 0 t) (iblk1 V c 1 t) (iblk1 V c 2 t) (iblk1 V c 4 t) (iblk1 V c 3 t) y
      = linRelu (V c main_v30) (V c main_v17) (V c main_arg7) (V c main_arg9) (V c main_v31) (((cfg1.win 5).blk t).view.emb y)
  have hy0 : (y 0).val < 4000 := (y 0).isLt
  have hy1 : (y 1).val < 64 := (y 1).isLt
  refine linRelu_congr _ _ _ _ _ _ _ _ _ _ y _ ?_ ?_ ?_ ?_ ?_
  · intro k
    show V c main_v30 (((cfg1.win 0).blk t).view.emb (ix2 (y 0) k)) = V c main_v30 (ix2 ((((cfg1.win 5).blk t).view.emb y) 0) k)
    refine congrArg _ (funext fun a => Fin.ext ?_)
    match a with
    | ⟨0, _⟩ => show win1_0.index t (0 : Fin 2) * 4000 + 1 * (y 0).val = win1_5.index t (0 : Fin 2) * 4000 + 1 * (y 0).val; omega
    | ⟨1, _⟩ => show win1_0.index t (1 : Fin 2) * 64 + 1 * k.val = k.val; omega
  · intro k
    show V c main_v17 (((cfg1.win 1).blk t).view.emb (ix2 (y 0) k)) = V c main_v17 (ix2 ((((cfg1.win 5).blk t).view.emb y) 0) k)
    refine congrArg _ (funext fun a => Fin.ext ?_)
    match a with
    | ⟨0, _⟩ => show win1_1.index t (0 : Fin 2) * 4000 + 1 * (y 0).val = win1_5.index t (0 : Fin 2) * 4000 + 1 * (y 0).val; omega
    | ⟨1, _⟩ => show win1_1.index t (1 : Fin 2) * 64 + 1 * k.val = k.val; omega
  · intro k
    show V c main_arg7 (((cfg1.win 2).blk t).view.emb (ix2 k (y 1))) = V c main_arg7 (ix2 k ((((cfg1.win 5).blk t).view.emb y) 1))
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * (y 1).val = win1_5.index t (1 : Fin 2) * 64 + 1 * (y 1).val; omega
  · intro k
    show V c main_arg9 (((cfg1.win 4).blk t).view.emb (ix2 k (y 1))) = V c main_arg9 (ix2 k ((((cfg1.win 5).blk t).view.emb y) 1))
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * (y 1).val = win1_5.index t (1 : Fin 2) * 64 + 1 * (y 1).val; omega
  · show V c main_v31 (((cfg1.win 3).blk t).view.emb (ix2 (0 : Fin 1) (y 1))) = V c main_v31 (ix2 (0 : Fin 1) ((((cfg1.win 5).blk t).view.emb y) 1))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (y 1).val = win1_5.index t (1 : Fin 2) * 64 + 1 * (y 1).val; omega

/-- An index of the result is in point `t`'s block iff each coordinate is in the block's range on its axis. -/
theorem in_block (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v32).slice (win1_5.rect t)).set ↔ _
  rw [View.set_slice_whole, Rect.mem_set_unit]
  exact Iff.rfl

/-- Row `r` of the result is in the block of point `r / 4000`: the 25 blocks tile the array. -/
theorem tiled (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 25 := N_1
  let t : Fin cfg1.N := ⟨(i 0).val / 4000, by show (i 0).val / 4000 < grid1.N; omega⟩
  obtain ⟨a0, a1, x0, x1, r0, r1, b0, b1, o0, o1, y0, y1⟩ := index_maps t
  have ht : t.val = (i 0).val / 4000 := rfl
  refine ⟨t, flush1_5 t, ?_⟩
  rw [in_block]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The result array after the launch is the layer of the arrays the launch found. -/
theorem result (c : Dev nD) : (dat1 V c).arrAt 5 cfg1.N = whole V c :=
  (dat1 V c).arrAt_eq_of_cover 5 (whole V c) (fun t _ => written_back V c t) tiled

end Cert.KernelIdeal.Blocks1

end
-- ==== Proof.Region2.lean ====
/-
  Launch 2 of the row-block kernel: what its result array holds.

  The grid has 25 points; point `t` reads rows `4000·t … 4000·t + 3999` of the neighbourhood sums and of the node
  features, the whole of both weight matrices and of the bias row, and writes the same rows of the result. Its body
  computes the linear layer of those blocks, and a block of rows of the layer is the layer of the blocks of rows, so
  what point `t` writes back is block `t` of the layer of the whole arrays. The 25 blocks tile the result, so the result
  array ends holding the layer of the arrays as the launch finds them — stated for any contents `V` at entry.
-/
import proofs.«179882_j30940944401187_1_alg».proof.Proof.Gen.KernelIdeal.Frame
import proofs.«179882_j30940944401187_1_alg».proof.Proof.LibLinLayer

set_option maxRecDepth 16384

noncomputable section

namespace Cert.KernelIdeal.Blocks2

open Cert.KernelIdeal Cert.KernelIdeal.Gen Cert.Lib.LinLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the layer of its five loaded blocks. -/
theorem body_value (v0 v3 : Vec Ideal S4000x64 .f32) (v6 v8 : Vec Ideal S64x64 .f32) (v11 : Vec Ideal S1x64 .f32) :
    k2_pay1 (F := Ideal) v0 v3 v6 v8 v11 = lin v0 v3 v6 v8 v11 := by
  unfold k2_pay1
  simp only [shapeCast_self]
  exact body_lin dot_S4000x64_S64x64_S4000x64_1_0_0_1_n_n rfl _ _ v0 v3 v6 v8 v11

/-- The index maps over the grid: the two row-blocked inputs and the output are at block `(t, 0)`, the weights and the
    bias at block `(0, 0)`. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the arrays as the launch finds them. -/
abbrev whole (c : Dev nD) : Buf (Elt Ideal) ((c : Thread nD τ).loc main_v47) :=
  lin (V c main_v45) (V c main_v32) (V c main_arg10) (V c main_arg12) (V c main_v46)

/-- What point `t` writes back is block `t` of the layer of the whole arrays. -/
theorem written_back (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero origin]
  simp only [View.ld_unit_zero (S := S4000x64) origin, View.ld_unit_zero (S := S64x64) origin, View.ld_unit_zero (S := S1x64) origin]
  rw [body_value]
  obtain ⟨a0, a1, x0, x1, r0, r1, b0, b1, o0, o1, y0, y1⟩ := index_maps t
  funext y
  show lin (iblk2 V c 0 t) (iblk2 V c 1 t) (iblk2 V c 2 t) (iblk2 V c 4 t) (iblk2 V c 3 t) y
      = lin (V c main_v45) (V c main_v32) (V c main_arg10) (V c main_arg12) (V c main_v46) (((cfg2.win 5).blk t).view.emb y)
  have hy0 : (y 0).val < 4000 := (y 0).isLt
  have hy1 : (y 1).val < 64 := (y 1).isLt
  refine lin_congr _ _ _ _ _ _ _ _ _ _ y _ ?_ ?_ ?_ ?_ ?_
  · intro k
    show V c main_v45 (((cfg2.win 0).blk t).view.emb (ix2 (y 0) k)) = V c main_v45 (ix2 ((((cfg2.win 5).blk t).view.emb y) 0) k)
    refine congrArg _ (funext fun a => Fin.ext ?_)
    match a with
    | ⟨0, _⟩ => show win2_0.index t (0 : Fin 2) * 4000 + 1 * (y 0).val = win2_5.index t (0 : Fin 2) * 4000 + 1 * (y 0).val; omega
    | ⟨1, _⟩ => show win2_0.index t (1 : Fin 2) * 64 + 1 * k.val = k.val; omega
  · intro k
    show V c main_v32 (((cfg2.win 1).blk t).view.emb (ix2 (y 0) k)) = V c main_v32 (ix2 ((((cfg2.win 5).blk t).view.emb y) 0) k)
    refine congrArg _ (funext fun a => Fin.ext ?_)
    match a with
    | ⟨0, _⟩ => show win2_1.index t (0 : Fin 2) * 4000 + 1 * (y 0).val = win2_5.index t (0 : Fin 2) * 4000 + 1 * (y 0).val; omega
    | ⟨1, _⟩ => show win2_1.index t (1 : Fin 2) * 64 + 1 * k.val = k.val; omega
  · intro k
    show V c main_arg10 (((cfg2.win 2).blk t).view.emb (ix2 k (y 1))) = V c main_arg10 (ix2 k ((((cfg2.win 5).blk t).view.emb y) 1))
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * (y 1).val = win2_5.index t (1 : Fin 2) * 64 + 1 * (y 1).val; omega
  · intro k
    show V c main_arg12 (((cfg2.win 4).blk t).view.emb (ix2 k (y 1))) = V c main_arg12 (ix2 k ((((cfg2.win 5).blk t).view.emb y) 1))
    refine congrArg _ (funext fun a => Fin.ext ?_)
    match a with
    | ⟨0, _⟩ => show win2_4.index t (0 : Fin 2) * 64 + 1 * k.val = k.val; omega
    | ⟨1, _⟩ => show win2_4.index t (1 : Fin 2) * 64 + 1 * (y 1).val = win2_5.index t (1 : Fin 2) * 64 + 1 * (y 1).val; omega
  · show V c main_v46 (((cfg2.win 3).blk t).view.emb (ix2 (0 : Fin 1) (y 1))) = V c main_v46 (ix2 (0 : Fin 1) ((((cfg2.win 5).blk t).view.emb y) 1))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (y 1).val = win2_5.index t (1 : Fin 2) * 64 + 1 * (y 1).val; omega

/-- An index of the result is in point `t`'s block iff each coordinate is in the block's range on its axis. -/
theorem in_block (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v47).slice (win2_5.rect t)).set ↔ _
  rw [View.set_slice_whole, Rect.mem_set_unit]
  exact Iff.rfl

/-- Row `r` of the result is in the block of point `r / 4000`: the 25 blocks tile the array. -/
theorem tiled (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 25 := N_2
  let t : Fin cfg2.N := ⟨(i 0).val / 4000, by show (i 0).val / 4000 < grid2.N; omega⟩
  obtain ⟨a0, a1, x0, x1, r0, r1, b0, b1, o0, o1, y0, y1⟩ := index_maps t
  have ht : t.val = (i 0).val / 4000 := rfl
  refine ⟨t, flush2_5 t, ?_⟩
  rw [in_block]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 64 ≤ (i 1).val ∧ (i 1).val < win2_5.index t (1 : Fin 2) * 64 + 64; omega

/-- The result array after the launch is the layer of the arrays the launch found. -/
theorem result (c : Dev nD) : (dat2 V c).arrAt 5 cfg2.N = whole V c :=
  (dat2 V c).arrAt_eq_of_cover 5 (whole V c) (fun t _ => written_back V c t) tiled

end Cert.KernelIdeal.Blocks2

end
-- ==== Proof.RefLayer.lean ====
/-
  The reference's three graph-convolution layers are the layer of `LibLinLayer.lean`.

  In the reference each layer is `dot_general(agg, W_rel) + bias + dot_general(x, W_root)`, the bias a vector `[64]` spread
  to a row `[1, 64]` and then over the 100000 rows, followed (in the first two layers) by a maximum with zero. Entry by entry
  that is the layer of the neighbourhood sums, the node features, the two weight matrices and the bias row — the bias row
  written here as the reshape `[64] → [1, 64]` of the bias vector, which holds the same entries as the reference's
  broadcast along axis 1.
-/
import proofs.«179882_j30940944401187_1_alg».proof.Proof.Gen.ReferenceIdeal.Read
import proofs.«179882_j30940944401187_1_alg».proof.Proof.LibLinLayer

noncomputable section

namespace Cert.ReferenceIdeal.Layers

open Cert.ReferenceIdeal Cert.ReferenceIdeal.Gen Cert.ReferenceIdeal.Read Cert.Lib.LinLayer Idealize.ShloMosaic

variable (x0 : (⟨S100000x1, .f32⟩ : BufTy).Contents (Elt Ideal)) (x1 : (⟨S2x1200000, .i32⟩ : BufTy).Contents (Elt Ideal))
  (x3 : (⟨S1200000, .f32⟩ : BufTy).Contents (Elt Ideal)) (x4 x6 : (⟨S1x64, .f32⟩ : BufTy).Contents (Elt Ideal))
  (x5 x8 x11 : (⟨S64, .f32⟩ : BufTy).Contents (Elt Ideal)) (x7 x9 x10 x12 : (⟨S64x64, .f32⟩ : BufTy).Contents (Elt Ideal))
  (hs : S64.ShapeCasts S1x64)

/-- Layer 1 (one input channel): the rectified layer of the first neighbourhood sums and the input features. -/
theorem layer1 : linRelu (val_main_v15 (F := Ideal) x0 x1 x3) x0 x4 x6 (shapeCast S1x64 x5 hs)
    = val_main_v22 (F := Ideal) x0 x1 x3 x4 x5 x6 := by
  unfold val_main_v22 val_main_v21 val_main_v19 val_main_v20 val_main_v16 val_main_v18 val_main_v17 val_main_call0_v0 val_main_call0_cst
  rw [host_lin dot_S100000x1_S1x64_S100000x64_1_0_0_1_n_n rfl, host_relu, row_two_ways x5 hs bcast_S64_S1x64_1]
  rfl

/-- Layer 2: the rectified layer of the second neighbourhood sums and layer 1's output. -/
theorem layer2 : linRelu (val_main_v35 (F := Ideal) x0 x1 x3 x4 x5 x6) (val_main_v22 (F := Ideal) x0 x1 x3 x4 x5 x6) x7 x9 (shapeCast S1x64 x8 hs)
    = val_main_v42 (F := Ideal) x0 x1 x3 x4 x5 x6 x7 x8 x9 := by
  unfold val_main_v42 val_main_v41 val_main_v39 val_main_v40 val_main_v36 val_main_v38 val_main_v37 val_main_call1_v0 val_main_call1_cst
  rw [host_lin dot_S100000x64_S64x64_S100000x64_1_0_0_1_n_n rfl, host_relu, row_two_ways x8 hs bcast_S64_S1x64_1]
  rfl

/-- Layer 3 (not rectified): the layer of the third neighbourhood sums and layer 2's output. -/
theorem layer3 : lin (val_main_v55 (F := Ideal) x0 x1 x3 x4 x5 x6 x7 x8 x9) (val_main_v42 (F := Ideal) x0 x1 x3 x4 x5 x6 x7 x8 x9) x10 x12 (shapeCast S1x64 x11 hs)
    = val_main_v61 (F := Ideal) x0 x1 x3 x4 x5 x6 x7 x8 x9 x10 x11 x12 := by
  unfold val_main_v61 val_main_v59 val_main_v60 val_main_v56 val_main_v58 val_main_v57
  rw [host_lin dot_S100000x64_S64x64_S100000x64_1_0_0_1_n_n rfl, row_two_ways x11 hs bcast_S64_S1x64_1]

end Cert.ReferenceIdeal.Layers

end
-- ==== Proof.Fold.lean ====
/-
  The contents of the segment boundaries, read back to the launch memory.

  @main's seven segments leave, at each boundary, every buffer at a fold of the launch memory: a stretch of host operations
  rewrites the buffers its operations write (each operation's result is its function of its operands' contents at that
  point) and keeps the rest; a launch of the row-block kernel rewrites its result array (to the layer of the arrays it
  found, `Region0/1/2`) and keeps the rest. Walking the boundaries in order, each buffer a later segment reads is a stage
  of the reference's own computation applied to the fifteen arguments: the neighbourhood sums (gather of source rows
  times edge weight, scattered to destination rows) are the same operations on both sides, each launch's result is the
  reference's layer (`RefLayer`), and the pooling head after the third launch is the same operations again. At the last
  boundary the result buffer holds the reference's last stage of the arguments.
-/
import proofs.«179882_j30940944401187_1_alg».proof.Proof.Gen.KernelIdeal.Frame
import proofs.«179882_j30940944401187_1_alg».proof.Proof.Region0
import proofs.«179882_j30940944401187_1_alg».proof.Proof.Region1
import proofs.«179882_j30940944401187_1_alg».proof.Proof.Region2
import proofs.«179882_j30940944401187_1_alg».proof.Proof.RefLayer

set_option maxRecDepth 16384

noncomputable section

namespace Cert.KernelIdeal.Fold

open Cert.KernelIdeal Cert.KernelIdeal.Gen Cert.Lib.LinLayer
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at1_v15 : W1 m ρ c (Proc.devRef .tc main_v15) = Cert.ReferenceIdeal.Read.val_main_v15 (F := Ideal) (m ((c : Thread nD τ).loc main_arg0)) (m ((c : Thread nD τ).loc main_arg1)) (m ((c : Thread nD τ).loc main_arg3)) := by
  show StableHlo.after hostOps0 (W0 m ρ c) (Proc.devRef .tc main_v15) = _
  after_results_simp <;> rfl

theorem at1_v16 : W1 m ρ c (Proc.devRef .tc main_v16) = shapeCast S1x64 (m ((c : Thread nD τ).loc main_arg5)) shapeCasts_S64_S1x64 := by
  show StableHlo.after hostOps0 (W0 m ρ c) (Proc.devRef .tc main_v16) = _
  after_results_simp <;> rfl

theorem at1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

theorem at1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

theorem at1_arg0 : W1 m ρ c (Proc.devRef .tc main_arg0) = m ((c : Thread nD τ).loc main_arg0) := by
  show StableHlo.after hostOps0 (W0 m ρ c) (Proc.devRef .tc main_arg0) = _
  after_results_simp <;> rfl

theorem at1_arg2 : W1 m ρ c (Proc.devRef .tc main_arg2) = m ((c : Thread nD τ).loc main_arg2) := by
  show StableHlo.after hostOps0 (W0 m ρ c) (Proc.devRef .tc main_arg2) = _
  after_results_simp <;> rfl

theorem at1_arg3 : W1 m ρ c (Proc.devRef .tc main_arg3) = m ((c : Thread nD τ).loc main_arg3) := by
  show StableHlo.after hostOps0 (W0 m ρ c) (Proc.devRef .tc main_arg3) = _
  after_results_simp <;> rfl

theorem at1_arg4 : W1 m ρ c (Proc.devRef .tc main_arg4) = m ((c : Thread nD τ).loc main_arg4) := by
  show StableHlo.after hostOps0 (W0 m ρ c) (Proc.devRef .tc main_arg4) = _
  after_results_simp <;> rfl

theorem at1_arg6 : W1 m ρ c (Proc.devRef .tc main_arg6) = m ((c : Thread nD τ).loc main_arg6) := by
  show StableHlo.after hostOps0 (W0 m ρ c) (Proc.devRef .tc main_arg6) = _
  after_results_simp <;> rfl

theorem at1_arg7 : W1 m ρ c (Proc.devRef .tc main_arg7) = m ((c : Thread nD τ).loc main_arg7) := by
  show StableHlo.after hostOps0 (W0 m ρ c) (Proc.devRef .tc main_arg7) = _
  after_results_simp <;> rfl

theorem at1_arg8 : W1 m ρ c (Proc.devRef .tc main_arg8) = m ((c : Thread nD τ).loc main_arg8) := by
  show StableHlo.after hostOps0 (W0 m ρ c) (Proc.devRef .tc main_arg8) = _
  after_results_simp <;> rfl

theorem at1_arg9 : W1 m ρ c (Proc.devRef .tc main_arg9) = m ((c : Thread nD τ).loc main_arg9) := by
  show StableHlo.after hostOps0 (W0 m ρ c) (Proc.devRef .tc main_arg9) = _
  after_results_simp <;> rfl

theorem at1_arg10 : W1 m ρ c (Proc.devRef .tc main_arg10) = m ((c : Thread nD τ).loc main_arg10) := by
  show StableHlo.after hostOps0 (W0 m ρ c) (Proc.devRef .tc main_arg10) = _
  after_results_simp <;> rfl

theorem at1_arg11 : W1 m ρ c (Proc.devRef .tc main_arg11) = m ((c : Thread nD τ).loc main_arg11) := by
  show StableHlo.after hostOps0 (W0 m ρ c) (Proc.devRef .tc main_arg11) = _
  after_results_simp <;> rfl

theorem at1_arg12 : W1 m ρ c (Proc.devRef .tc main_arg12) = m ((c : Thread nD τ).loc main_arg12) := by
  show StableHlo.after hostOps0 (W0 m ρ c) (Proc.devRef .tc main_arg12) = _
  after_results_simp <;> rfl

theorem at1_arg13 : W1 m ρ c (Proc.devRef .tc main_arg13) = m ((c : Thread nD τ).loc main_arg13) := by
  show StableHlo.after hostOps0 (W0 m ρ c) (Proc.devRef .tc main_arg13) = _
  after_results_simp <;> rfl

theorem at1_arg14 : W1 m ρ c (Proc.devRef .tc main_arg14) = m ((c : Thread nD τ).loc main_arg14) := by
  show StableHlo.after hostOps0 (W0 m ρ c) (Proc.devRef .tc main_arg14) = _
  after_results_simp <;> rfl

theorem at2_v17 : W2 m ρ c (Proc.devRef .tc main_v17) = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W2_arr m ρ c 5, Blocks0.result (V1 m ρ) c]
  show linRelu (W1 m ρ c (Proc.devRef .tc main_v15)) (W1 m ρ c (Proc.devRef .tc main_arg0)) (W1 m ρ c (Proc.devRef .tc main_arg4)) (W1 m ρ c (Proc.devRef .tc main_arg6)) (W1 m ρ c (Proc.devRef .tc main_v16)) = _
  rw [at1_v15 m ρ c, at1_arg0 m ρ c, at1_arg4 m ρ c, at1_arg6 m ρ c, at1_v16 m ρ c]
  exact Cert.ReferenceIdeal.Layers.layer1 _ _ _ _ _ _ _

theorem at2_v1 : W2 m ρ c (Proc.devRef .tc main_v1) = Cert.ReferenceIdeal.Read.val_main_v1 (F := Ideal) (m ((c : Thread nD τ).loc main_arg1)) :=
  (W2_of_ne m ρ c main_v1 (by decide)).trans (at1_v1 m ρ c)

theorem at2_v3 : W2 m ρ c (Proc.devRef .tc main_v3) = Cert.ReferenceIdeal.Read.val_main_v3 (F := Ideal) (m ((c : Thread nD τ).loc main_arg1)) :=
  (W2_of_ne m ρ c main_v3 (by decide)).trans (at1_v3 m ρ c)

theorem at2_arg2 : W2 m ρ c (Proc.devRef .tc main_arg2) = m ((c : Thread nD τ).loc main_arg2) :=
  (W2_of_ne m ρ c main_arg2 (by decide)).trans (at1_arg2 m ρ c)

theorem at2_arg3 : W2 m ρ c (Proc.devRef .tc main_arg3) = m ((c : Thread nD τ).loc main_arg3) :=
  (W2_of_ne m ρ c main_arg3 (by decide)).trans (at1_arg3 m ρ c)

theorem at2_arg7 : W2 m ρ c (Proc.devRef .tc main_arg7) = m ((c : Thread nD τ).loc main_arg7) :=
  (W2_of_ne m ρ c main_arg7 (by decide)).trans (at1_arg7 m ρ c)

theorem at2_arg8 : W2 m ρ c (Proc.devRef .tc main_arg8) = m ((c : Thread nD τ).loc main_arg8) :=
  (W2_of_ne m ρ c main_arg8 (by decide)).trans (at1_arg8 m ρ c)

theorem at2_arg9 : W2 m ρ c (Proc.devRef .tc main_arg9) = m ((c : Thread nD τ).loc main_arg9) :=
  (W2_of_ne m ρ c main_arg9 (by decide)).trans (at1_arg9 m ρ c)

theorem at2_arg10 : W2 m ρ c (Proc.devRef .tc main_arg10) = m ((c : Thread nD τ).loc main_arg10) :=
  (W2_of_ne m ρ c main_arg10 (by decide)).trans (at1_arg10 m ρ c)

theorem at2_arg11 : W2 m ρ c (Proc.devRef .tc main_arg11) = m ((c : Thread nD τ).loc main_arg11) :=
  (W2_of_ne m ρ c main_arg11 (by decide)).trans (at1_arg11 m ρ c)

theorem at2_arg12 : W2 m ρ c (Proc.devRef .tc main_arg12) = m ((c : Thread nD τ).loc main_arg12) :=
  (W2_of_ne m ρ c main_arg12 (by decide)).trans (at1_arg12 m ρ c)

theorem at2_arg13 : W2 m ρ c (Proc.devRef .tc main_arg13) = m ((c : Thread nD τ).loc main_arg13) :=
  (W2_of_ne m ρ c main_arg13 (by decide)).trans (at1_arg13 m ρ c)

theorem at2_arg14 : W2 m ρ c (Proc.devRef .tc main_arg14) = m ((c : Thread nD τ).loc main_arg14) :=
  (W2_of_ne m ρ c main_arg14 (by decide)).trans (at1_arg14 m ρ c)

theorem at3_v30 : W3 m ρ c (Proc.devRef .tc main_v30) = Cert.ReferenceIdeal.Read.val_main_v35 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v30) = _
  after_results_simp
  rw [at2_v17 m ρ c, at2_v1 m ρ c, at2_v3 m ρ c, at2_arg3 m ρ c]
  rfl

theorem at3_v31 : W3 m ρ c (Proc.devRef .tc main_v31) = shapeCast S1x64 (m ((c : Thread nD τ).loc main_arg8)) shapeCasts_S64_S1x64 := by
  show StableHlo.after hostOps1 (W2 m ρ c) (Proc.devRef .tc main_v31) = _
  after_results_simp
  rw [at2_arg8 m ρ c]
  rfl

theorem at3_v17 : W3 m ρ c (Proc.devRef .tc main_v17) = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v17) = _
  after_results_simp
  exact at2_v17 m ρ c

theorem at3_v1 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  after_results_simp
  exact at2_v1 m ρ c

theorem at3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact at2_v3 m ρ c

theorem at3_arg2 : W3 m ρ c (Proc.devRef .tc main_arg2) = m ((c : Thread nD τ).loc main_arg2) := by
  show StableHlo.after hostOps1 (W2 m ρ c) (Proc.devRef .tc main_arg2) = _
  after_results_simp
  exact at2_arg2 m ρ c

theorem at3_arg3 : W3 m ρ c (Proc.devRef .tc main_arg3) = m ((c : Thread nD τ).loc main_arg3) := by
  show StableHlo.after hostOps1 (W2 m ρ c) (Proc.devRef .tc main_arg3) = _
  after_results_simp
  exact at2_arg3 m ρ c

theorem at3_arg7 : W3 m ρ c (Proc.devRef .tc main_arg7) = m ((c : Thread nD τ).loc main_arg7) := by
  show StableHlo.after hostOps1 (W2 m ρ c) (Proc.devRef .tc main_arg7) = _
  after_results_simp
  exact at2_arg7 m ρ c

theorem at3_arg9 : W3 m ρ c (Proc.devRef .tc main_arg9) = m ((c : Thread nD τ).loc main_arg9) := by
  show StableHlo.after hostOps1 (W2 m ρ c) (Proc.devRef .tc main_arg9) = _
  after_results_simp
  exact at2_arg9 m ρ c

theorem at3_arg10 : W3 m ρ c (Proc.devRef .tc main_arg10) = m ((c : Thread nD τ).loc main_arg10) := by
  show StableHlo.after hostOps1 (W2 m ρ c) (Proc.devRef .tc main_arg10) = _
  after_results_simp
  exact at2_arg10 m ρ c

theorem at3_arg11 : W3 m ρ c (Proc.devRef .tc main_arg11) = m ((c : Thread nD τ).loc main_arg11) := by
  show StableHlo.after hostOps1 (W2 m ρ c) (Proc.devRef .tc main_arg11) = _
  after_results_simp
  exact at2_arg11 m ρ c

theorem at3_arg12 : W3 m ρ c (Proc.devRef .tc main_arg12) = m ((c : Thread nD τ).loc main_arg12) := by
  show StableHlo.after hostOps1 (W2 m ρ c) (Proc.devRef .tc main_arg12) = _
  after_results_simp
  exact at2_arg12 m ρ c

theorem at3_arg13 : W3 m ρ c (Proc.devRef .tc main_arg13) = m ((c : Thread nD τ).loc main_arg13) := by
  show StableHlo.after hostOps1 (W2 m ρ c) (Proc.devRef .tc main_arg13) = _
  after_results_simp
  exact at2_arg13 m ρ c

theorem at3_arg14 : W3 m ρ c (Proc.devRef .tc main_arg14) = m ((c : Thread nD τ).loc main_arg14) := by
  show StableHlo.after hostOps1 (W2 m ρ c) (Proc.devRef .tc main_arg14) = _
  after_results_simp
  exact at2_arg14 m ρ c

theorem at4_v32 : W4 m ρ c (Proc.devRef .tc main_v32) = Cert.ReferenceIdeal.Read.val_main_v42 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W4_arr m ρ c 5, Blocks1.result (V3 m ρ) c]
  show linRelu (W3 m ρ c (Proc.devRef .tc main_v30)) (W3 m ρ c (Proc.devRef .tc main_v17)) (W3 m ρ c (Proc.devRef .tc main_arg7)) (W3 m ρ c (Proc.devRef .tc main_arg9)) (W3 m ρ c (Proc.devRef .tc main_v31)) = _
  rw [at3_v30 m ρ c, at3_v17 m ρ c, at3_arg7 m ρ c, at3_arg9 m ρ c, at3_v31 m ρ c]
  exact Cert.ReferenceIdeal.Layers.layer2 _ _ _ _ _ _ _ _ _ _

theorem at4_v1 : W4 m ρ c (Proc.devRef .tc main_v1) = Cert.ReferenceIdeal.Read.val_main_v1 (F := Ideal) (m ((c : Thread nD τ).loc main_arg1)) :=
  (W4_of_ne m ρ c main_v1 (by decide)).trans (at3_v1 m ρ c)

theorem at4_v3 : W4 m ρ c (Proc.devRef .tc main_v3) = Cert.ReferenceIdeal.Read.val_main_v3 (F := Ideal) (m ((c : Thread nD τ).loc main_arg1)) :=
  (W4_of_ne m ρ c main_v3 (by decide)).trans (at3_v3 m ρ c)

theorem at4_arg2 : W4 m ρ c (Proc.devRef .tc main_arg2) = m ((c : Thread nD τ).loc main_arg2) :=
  (W4_of_ne m ρ c main_arg2 (by decide)).trans (at3_arg2 m ρ c)

theorem at4_arg3 : W4 m ρ c (Proc.devRef .tc main_arg3) = m ((c : Thread nD τ).loc main_arg3) :=
  (W4_of_ne m ρ c main_arg3 (by decide)).trans (at3_arg3 m ρ c)

theorem at4_arg10 : W4 m ρ c (Proc.devRef .tc main_arg10) = m ((c : Thread nD τ).loc main_arg10) :=
  (W4_of_ne m ρ c main_arg10 (by decide)).trans (at3_arg10 m ρ c)

theorem at4_arg11 : W4 m ρ c (Proc.devRef .tc main_arg11) = m ((c : Thread nD τ).loc main_arg11) :=
  (W4_of_ne m ρ c main_arg11 (by decide)).trans (at3_arg11 m ρ c)

theorem at4_arg12 : W4 m ρ c (Proc.devRef .tc main_arg12) = m ((c : Thread nD τ).loc main_arg12) :=
  (W4_of_ne m ρ c main_arg12 (by decide)).trans (at3_arg12 m ρ c)

theorem at4_arg13 : W4 m ρ c (Proc.devRef .tc main_arg13) = m ((c : Thread nD τ).loc main_arg13) :=
  (W4_of_ne m ρ c main_arg13 (by decide)).trans (at3_arg13 m ρ c)

theorem at4_arg14 : W4 m ρ c (Proc.devRef .tc main_arg14) = m ((c : Thread nD τ).loc main_arg14) :=
  (W4_of_ne m ρ c main_arg14 (by decide)).trans (at3_arg14 m ρ c)

theorem at5_v45 : W5 m ρ c (Proc.devRef .tc main_v45) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v45) = _
  after_results_simp
  rw [at4_v32 m ρ c, at4_v1 m ρ c, at4_v3 m ρ c, at4_arg3 m ρ c]
  rfl

theorem at5_v46 : W5 m ρ c (Proc.devRef .tc main_v46) = shapeCast S1x64 (m ((c : Thread nD τ).loc main_arg11)) shapeCasts_S64_S1x64 := by
  show StableHlo.after hostOps2 (W4 m ρ c) (Proc.devRef .tc main_v46) = _
  after_results_simp
  rw [at4_arg11 m ρ c]
  rfl

theorem at5_v32 : W5 m ρ c (Proc.devRef .tc main_v32) = Cert.ReferenceIdeal.Read.val_main_v42 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v32) = _
  after_results_simp
  exact at4_v32 m ρ c

theorem at5_arg2 : W5 m ρ c (Proc.devRef .tc main_arg2) = m ((c : Thread nD τ).loc main_arg2) := by
  show StableHlo.after hostOps2 (W4 m ρ c) (Proc.devRef .tc main_arg2) = _
  after_results_simp
  exact at4_arg2 m ρ c

theorem at5_arg10 : W5 m ρ c (Proc.devRef .tc main_arg10) = m ((c : Thread nD τ).loc main_arg10) := by
  show StableHlo.after hostOps2 (W4 m ρ c) (Proc.devRef .tc main_arg10) = _
  after_results_simp
  exact at4_arg10 m ρ c

theorem at5_arg12 : W5 m ρ c (Proc.devRef .tc main_arg12) = m ((c : Thread nD τ).loc main_arg12) := by
  show StableHlo.after hostOps2 (W4 m ρ c) (Proc.devRef .tc main_arg12) = _
  after_results_simp
  exact at4_arg12 m ρ c

theorem at5_arg13 : W5 m ρ c (Proc.devRef .tc main_arg13) = m ((c : Thread nD τ).loc main_arg13) := by
  show StableHlo.after hostOps2 (W4 m ρ c) (Proc.devRef .tc main_arg13) = _
  after_results_simp
  exact at4_arg13 m ρ c

theorem at5_arg14 : W5 m ρ c (Proc.devRef .tc main_arg14) = m ((c : Thread nD τ).loc main_arg14) := by
  show StableHlo.after hostOps2 (W4 m ρ c) (Proc.devRef .tc main_arg14) = _
  after_results_simp
  exact at4_arg14 m ρ c

theorem at6_v47 : W6 m ρ c (Proc.devRef .tc main_v47) = Cert.ReferenceIdeal.Read.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W6_arr m ρ c 5, Blocks2.result (V5 m ρ) c]
  show lin (W5 m ρ c (Proc.devRef .tc main_v45)) (W5 m ρ c (Proc.devRef .tc main_v32)) (W5 m ρ c (Proc.devRef .tc main_arg10)) (W5 m ρ c (Proc.devRef .tc main_arg12)) (W5 m ρ c (Proc.devRef .tc main_v46)) = _
  rw [at5_v45 m ρ c, at5_v32 m ρ c, at5_arg10 m ρ c, at5_arg12 m ρ c, at5_v46 m ρ c]
  exact Cert.ReferenceIdeal.Layers.layer3 _ _ _ _ _ _ _ _ _ _ _ _ _

theorem at6_arg2 : W6 m ρ c (Proc.devRef .tc main_arg2) = m ((c : Thread nD τ).loc main_arg2) :=
  (W6_of_ne m ρ c main_arg2 (by decide)).trans (at5_arg2 m ρ c)

theorem at6_arg13 : W6 m ρ c (Proc.devRef .tc main_arg13) = m ((c : Thread nD τ).loc main_arg13) :=
  (W6_of_ne m ρ c main_arg13 (by decide)).trans (at5_arg13 m ρ c)

theorem at6_arg14 : W6 m ρ c (Proc.devRef .tc main_arg14) = m ((c : Thread nD τ).loc main_arg14) :=
  (W6_of_ne m ρ c main_arg14 (by decide)).trans (at5_arg14 m ρ c)

theorem at7_v63 : W7 m ρ c (Proc.devRef .tc main_v63) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps3 (W6 m ρ c) (Proc.devRef .tc main_v63) = _
  after_results_simp
  rw [at6_v47 m ρ c, at6_arg2 m ρ c, at6_arg13 m ρ c, at6_arg14 m ρ c]
  rfl

end Cert.KernelIdeal.Fold

end
-- ==== Proof.lean ====
/-
  A three-layer graph convolution with mean pooling and a linear head: the tiled kernel against the plain reference.

  Both programs compute, for node features `x`, edges `(src, dst)` with weights `w`, and graph ids `batch`:
  three times  h ← layer(agg(h), h)  with  agg(h)[d] = Σ_{edges e into d} w[e] · h[src e]  and
  layer(a, h) = a · W_rel + b + h · W_root  (rectified after the first two), then per-graph sums divided by
  max(count, 1), times `W_lin`, plus `b_lin`. The gather, the scatter-add, the pooling and the head are the same host
  operations in both programs. The programs differ only in the layer: the reference computes it with two
  `dot_general`s over all 100000 rows; the kernel launches, three times, a grid of 25 row blocks of 4000 rows, each
  computing its rows with two matrix products into zero accumulators. On the extended reals a matrix product is the sum
  over the contracted axis either way, a row of the layer reads only the same row of its two row operands, and the 25
  blocks tile the rows — so each launch's result array is the reference's layer of the same arrays, and by induction
  along @main every buffer a later stage reads holds the reference's stage of the arguments. No rearrangement of sums is
  involved, so nothing depends on the inputs being finite.

  `LibLinLayer`: the layer entry by entry and its two computations. `Region0/1/2`: each launch's result array. `RefLayer`:
  the reference's layers. `KernelRun`: the kernel's run with its result named. `Fold`: the buffers' contents at each
  segment boundary, back to the arguments.
-/
import proofs.«179882_j30940944401187_1_alg».proof.Defs
import proofs.«179882_j30940944401187_1_alg».proof.Proof.Gen.Kernel
import proofs.«179882_j30940944401187_1_alg».proof.Proof.Gen.Kernel.Skeleton
import proofs.«179882_j30940944401187_1_alg».proof.Proof.Gen.Kernel.Launch
import proofs.«179882_j30940944401187_1_alg».proof.Proof.Gen.Kernel.Points
import proofs.«179882_j30940944401187_1_alg».proof.Proof.Gen.Kernel.Frame
import proofs.«179882_j30940944401187_1_alg».proof.Proof.Gen.KernelIdeal
import proofs.«179882_j30940944401187_1_alg».proof.Proof.Gen.KernelIdeal.Skeleton
import proofs.«179882_j30940944401187_1_alg».proof.Proof.Gen.KernelIdeal.Launch
import proofs.«179882_j30940944401187_1_alg».proof.Proof.Gen.KernelIdeal.Points
import proofs.«179882_j30940944401187_1_alg».proof.Proof.Gen.KernelIdeal.Frame
import proofs.«179882_j30940944401187_1_alg».proof.Proof.Gen.ReferenceIdeal
import proofs.«179882_j30940944401187_1_alg».proof.Proof.Gen.ReferenceIdeal.Run
import proofs.«179882_j30940944401187_1_alg».proof.Proof.Gen.ReferenceIdeal.Read
import proofs.«179882_j30940944401187_1_alg».proof.Proof.Gen.Pre_finite_inputs
import proofs.«179882_j30940944401187_1_alg».proof.Proof.KernelRun
import proofs.«179882_j30940944401187_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference has no launch: its frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The kernel's result is the reference's last stage of the kernel's arguments, and the reference's result is that stage
    of its own arguments, which agree with the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Fold.at7_v63 m ρ c), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v77_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
